-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128x1 .f32) (main_arg5 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x1 .f32) (main_arg5 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S3x128 : Shape := ⟨2, ![3, 128]⟩
abbrev S10000x1 : Shape := ⟨2, ![10000, 1]⟩
abbrev S400x10000 : Shape := ⟨2, ![400, 10000]⟩
abbrev S400x1 : Shape := ⟨2, ![400, 1]⟩
abbrev S400x128 : Shape := ⟨2, ![400, 128]⟩
abbrev S400 : Shape := ⟨1, ![400]⟩

abbrev nBuf : Space → Nat
  | .hbm => 12
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x128, .f32⟩
  | .hbm, ⟨7, _⟩ => ⟨S1x128, .f32⟩
  | .hbm, ⟨8, _⟩ => ⟨S1x1, .f32⟩
  | .hbm, ⟨9, _⟩ => ⟨S1x128, .f32⟩
  | .hbm, ⟨10, _⟩ => ⟨S3x128, .f32⟩
  | .hbm, ⟨11, _⟩ => ⟨S10000x1, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S3x128, .f32⟩
  | .local _ .vmem, ⟨5, _⟩ => ⟨S400x1, .f32⟩
  | .local _ .vmem, ⟨6, _⟩ => ⟨S400x1, .f32⟩
  | .local _ .vmem, ⟨7, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  shapeCasts_S128x1_S1x128 : S128x1.ShapeCasts S1x128
  shapeCasts_S1_S1x1 : S1.ShapeCasts S1x1
  bcast_S1x1_S1x128_0_1 : S1x1.BroadcastsInDim S1x128 (![0, 1] : Fin 2 → Fin S1x128.rank)
  concatenates_S1x128_S1x128_S1x128_S3x128_d0 : Shape.Concatenates [S1x128, S1x128, S1x128] S3x128 0
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S3x128_S1x128_0_0 : ∀ a, (![0, 0] : Fin 2 → Nat) a + S1x128.size a ≤ S3x128.size a
  h_S1x128 : 0 < S1x128.numel
  shapeCasts_S1x128_S1x128 : S1x128.ShapeCasts S1x128
  inb_S3x128_S1x128_1_0 : ∀ a, (![1, 0] : Fin 2 → Nat) a + S1x128.size a ≤ S3x128.size a
  inb_S3x128_S1x1_2_0 : ∀ a, (![2, 0] : Fin 2 → Nat) a + S1x1.size a ≤ S3x128.size a
  h_S1x1 : 0 < S1x1.numel
  shapeCasts_S1x1_S1x1 : S1x1.ShapeCasts S1x1
  inb_S400x10000_S400x10000_0_0 : ∀ a, (![0, 0] : Fin 2 → Nat) a + S400x10000.size a ≤ S400x10000.size a
  h_S400x10000 : 0 < S400x10000.numel
  broadcasts_S1x128_S400x128 : S1x128.Broadcasts S400x128
  reduces_S400x128_S400 : S400x128.Reduces [1] S400
  shapeCasts_S400_S400x1 : S400.ShapeCasts S400x1
  broadcasts_S1x1_S400x1 : S1x1.Broadcasts S400x1
  reduces_S400x1_S400 : S400x1.Reduces [1] S400
  inb_S400x1_S400x1_0_0 : ∀ a, (![0, 0] : Fin 2 → Nat) a + S400x1.size a ≤ S400x1.size a
  h_S400x1 : 0 < S400x1.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x1.size a ≤ S10000x1.size a
  hwx0_4 : ∀ i : grid0.Coords, EltTy.bits .f32 = 32 ∨ (Rect.block (s := S10000x1) S400x1.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S400x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S10000x1 : Shape := ⟨2, ![10000, 1]⟩
abbrev S1x1 : Shape := ⟨2, ![1, 1]⟩
abbrev S10000 : Shape := ⟨1, ![10000]⟩

abbrev nBuf : Space → Nat
  | .hbm => 32
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x1, .f32⟩
  | .hbm, ⟨15, _⟩ => ⟨S10000x1, .f32⟩
  | .hbm, ⟨16, _⟩ => ⟨S1x1, .f32⟩
  | .hbm, ⟨17, _⟩ => ⟨S10000x1, .f32⟩
  | .hbm, ⟨18, _⟩ => ⟨S10000x1, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x1, .f32⟩
  | .hbm, ⟨26, _⟩ => ⟨S10000x1, .f32⟩
  | .hbm, ⟨27, _⟩ => ⟨S_, .f32⟩
  | .hbm, ⟨28, _⟩ => ⟨S10000, .f32⟩
  | .hbm, ⟨29, _⟩ => ⟨S10000x1, .f32⟩
  | .hbm, ⟨30, _⟩ => ⟨S10000x1, .f32⟩
  | .hbm, ⟨31, _⟩ => ⟨S10000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_v12 : Ref sig .tc := ⟨.hbm, 31, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  reducesTo_S10000x1_S10000_d1 : S10000x1.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x1_S10000x1_1_0_0_1_n_n_wf : DotDims.WF S10000x128 S128x1 S10000x1 [1] [0] [0] [1] [] []
  dot_S10000x10000_S10000x1_S10000x1_1_0_0_1_n_n_wf : DotDims.WF S10000x10000 S10000x1 S10000x1 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x10000_S10000x1_S10000x1_1_0_0_1_n_n : DotDims S10000x10000 S10000x1 S10000x1 where
  lhsContracting := [1]
  rhsContracting := [0]
  lhsNonContracting := [0]
  rhsNonContracting := [1]
  lhsBatch := []
  rhsBatch := []
  wf := dot_S10000x10000_S10000x1_S10000x1_1_0_0_1_n_n_wf

class Facts : Prop extends Facts₀ where

variable [Facts]
-- ==== Proof.K.Setup.lean ====
/-
  What the two runs of the layer body share. The program reshapes the three small parameters (the first layer's
  bias, the second layer's weight column, the second layer's bias) into rows, stacks them into one 3 × 128 array,
  and launches one grid of 25 points over row blocks of the adjacency matrix. Here: the buffers' contents when the
  grid is entered (the start contents after the five host operations), each window's block at a point, the one
  branch condition of the body (it holds at the first point only), and the staging and scratch memrefs the body
  is called with.
-/
import proofs.«102506_g26706106646738_cont_8to1_1738_24_alg».proof.Proof.Gen.Kernel.Launch
import proofs.«102506_g26706106646738_cont_8to1_1738_24_alg».proof.Proof.Gen.Kernel.Skeleton
import proofs.«102506_g26706106646738_cont_8to1_1738_24_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- Core `c`'s buffer contents when the grid is entered: the start contents after the five host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation before the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation before the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation before the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation before the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation before the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The branch condition -/

/-- The body's one branch: is this the first point of the grid? -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-! ## The memrefs the body is called with -/

/-- One staging buffer of the output window, through which its contents are stated. -/
abbrev VO0_4 : View sig .tc .vmem S400x1 .f32 := (Memref.whole cc0_stg4_0 : Memref sig .tc .vmem S400x1 .f32).view
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x1 .f32 := win0_4.stage (cfg0.slots t 4)
abbrev hs0_4 (t : Fin cfg0.N) : (ms0_4 t).IsWhole := hstage0_4 ((cfg0.slots t 4).cast nbuf0_4)
/-- The scratch operand: the product of the features with the first weight matrix, kept from the first point on. -/
abbrev scM0_0 : Memref sig .tc .vmem S10000x128 .f32 := Memref.whole cc0_scratch0
abbrev VS0_0 : View sig .tc .vmem S10000x128 .f32 := scM0_0.view

/-- The launch's invariant with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frm

end
-- ==== Proof.K.RunFirst.lean ====
/-
  The layer body at the first grid point, where its branch is taken: it multiplies the features by the first
  weight matrix into the scratch buffer, then computes the block's output from the adjacency rows and that
  scratch. The run finds what the stores leave in the output's staging buffer and in the scratch, as pieces.
-/
import proofs.«102506_g26706106646738_cont_8to1_1738_24_alg».proof.Proof.K.Setup

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs — the four inputs at their contents, the output's and the scratch at anything — the
    body, its branch taken, runs to the continuation holding the inputs as they were, the output's buffer with
    its pieces written and the scratch with its pieces written. -/
noncomputable def kernelRun0_A (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : cond0_0 i)
    (x0 : Vec F S10000x128 .f32) (x1 : Vec F S400x10000 .f32) (x2 : Vec F S128x128 .f32) (x3 : Vec F S3x128 .f32) :
    Σ' (L4 : List (View.Piece (Elt F) S400x1 .f32)), { LS0 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_body i arg1 harg1 arg2 harg2 arg3 harg3 arg4 harg4 arg5 harg5 arg6 harg6) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Frm

end
-- ==== Proof.K.RunLater.lean ====
/-
  The layer body at a later grid point, where its branch is not taken: the scratch buffer already holds the
  product of the features with the first weight matrix and is only read. The run finds what the store leaves in
  the output's staging buffer, as pieces, and hands the scratch back as it was.
-/
import proofs.«102506_g26706106646738_cont_8to1_1738_24_alg».proof.Proof.K.Setup

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs — the four inputs and the scratch at their contents, the output's at anything — the
    body, its branch not taken, runs to the continuation holding the inputs and the scratch as they were and the
    output's buffer with its pieces written. -/
noncomputable def kernelRun0_B (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : ¬cond0_0 i)
    (x0 : Vec F S10000x128 .f32) (x1 : Vec F S400x10000 .f32) (x2 : Vec F S128x128 .f32) (x3 : Vec F S3x128 .f32) (xs0 : Vec F S10000x128 .f32) :
    { L4 : List (View.Piece (Elt F) S400x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc0__gcn_body i arg1 harg1 arg2 harg2 arg3 harg3 arg4 harg4 arg5 harg5 arg6 harg6) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.Kernel.Frm

end
-- ==== Proof.K.Frame.lean ====
/-
  The frame of the program: what the output's staging buffer and the scratch hold after each grid point, the
  invariant that carries the scratch from point to point, the body's obligation at every point, and the run of
  the whole program. At the first point the body fills the scratch with the product of the features and the
  first weight matrix; at every later point it finds the scratch as the first point left it.
-/
import proofs.«102506_g26706106646738_cont_8to1_1738_24_alg».proof.Proof.K.RunFirst
import proofs.«102506_g26706106646738_cont_8to1_1738_24_alg».proof.Proof.K.RunLater

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's pieces for the output tile its block. -/
theorem cover0_A_4 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : cond0_0 i)
    (x0 : Vec F S10000x128 .f32) (x1 : Vec F S400x10000 .f32) (x2 : Vec F S128x128 .f32) (x3 : Vec F S3x128 .f32) (y : S400x1.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S400x1.size (by sl_kernel_rfl) y

/-- What the first point leaves in the output's staging buffer. -/
def out0_A_4 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : cond0_0 i)
    (x0 : Vec F S10000x128 .f32) (x1 : Vec F S400x10000 .f32) (x2 : Vec F S128x128 .f32) (x3 : Vec F S3x128 .f32) : Vec F S400x1 .f32 :=
  VO0_4.read (Elt F) (VO0_4.writes (Elt F) VO0_4.junk (kernelRun0_A c i arg1 harg1 arg2 harg2 arg3 harg3 arg4 harg4 arg5 harg5 arg6 harg6 hc0 x0 x1 x2 x3).1)

/-- The first point's pieces for the scratch tile it. -/
theorem scover0_A_0 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : cond0_0 i)
    (x0 : Vec F S10000x128 .f32) (x1 : Vec F S400x10000 .f32) (x2 : Vec F S128x128 .f32) (x3 : Vec F S3x128 .f32) (y : S10000x128.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S10000x128.size (by sl_kernel_rfl) y

/-- What the first point leaves in the scratch. -/
def sout0_A_0 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : cond0_0 i)
    (x0 : Vec F S10000x128 .f32) (x1 : Vec F S400x10000 .f32) (x2 : Vec F S128x128 .f32) (x3 : Vec F S3x128 .f32) : Vec F S10000x128 .f32 :=
  VS0_0.read (Elt F) (VS0_0.writes (Elt F) VS0_0.junk (kernelRun0_A c i arg1 harg1 arg2 harg2 arg3 harg3 arg4 harg4 arg5 harg5 arg6 harg6 hc0 x0 x1 x2 x3).2.1)

/-- A later point's pieces for the output tile its block. -/
theorem cover0_B_4 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : ¬cond0_0 i)
    (x0 : Vec F S10000x128 .f32) (x1 : Vec F S400x10000 .f32) (x2 : Vec F S128x128 .f32) (x3 : Vec F S3x128 .f32) (xs0 : Vec F S10000x128 .f32) (y : S400x1.Idx) :
    ∃ pc ∈ (kernelRun0_B c i arg1 harg1 arg2 harg2 arg3 harg3 arg4 harg4 arg5 harg5 arg6 harg6 hc0 x0 x1 x2 x3 xs0).1, y ∈ pc.1.set :=
  View.cover_of_tiledL (kernelRun0_B c i arg1 harg1 arg2 harg2 arg3 harg3 arg4 harg4 arg5 harg5 arg6 harg6 hc0 x0 x1 x2 x3 xs0).1 S400x1.size (by sl_kernel_rfl) y

/-- What a later point leaves in the output's staging buffer, the scratch holding `xs0`. -/
def out0_B_4 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : ¬cond0_0 i)
    (x0 : Vec F S10000x128 .f32) (x1 : Vec F S400x10000 .f32) (x2 : Vec F S128x128 .f32) (x3 : Vec F S3x128 .f32) (xs0 : Vec F S10000x128 .f32) : Vec F S400x1 .f32 :=
  VO0_4.read (Elt F) (VO0_4.writes (Elt F) VO0_4.junk (kernelRun0_B c i arg1 harg1 arg2 harg2 arg3 harg3 arg4 harg4 arg5 harg5 arg6 harg6 hc0 x0 x1 x2 x3 xs0).1)

/-! ## Point by point -/

/-- What the output's staging buffer and the scratch hold after the body at position `n`: at the first point what
    that case leaves; later the output from this point's blocks and the scratch the point before left, the scratch
    itself unchanged. -/
def outsAt0 (c : Dev nD) : (n : ℕ) → n < cfg0.N → Vec F S400x1 .f32 × Vec F S10000x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩))
  | n + 1, hn => (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
                  (outsAt0 c n (Nat.lt_of_succ_lt hn)).2)

theorem outsAt0_A (c : Dev nD) (t : Fin cfg0.N) (h0 : t.val = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t),
              sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2,
              (outsAt0 m c (t.val - 1) (Nat.lt_of_le_of_lt (Nat.sub_le _ _) t.isLt)).2) := by
  obtain ⟨n, hn⟩ := t
  cases n with
  | zero => exact absurd rfl h0
  | succ n => exact rfl

/-- The invariant before position `n`: before the first point the scratch holds anything; afterwards what the
    point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; at the first point the scratch holds anything
    and is taken back at what the body stored, at a later point it holds what the point before left and is taken
    back unchanged; the output's buffer is taken back at the point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases hz : t.val = 0
  · rw [outsAt0_A m c t hz]
    unfold out0_A_4 sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _)
  · rw [outsAt0_B m c t hz]
    unfold out0_B_4; (try dsimp only)
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => hz ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 25 := N_0; omega)

/-! ## The run -/

set_option backward.isDefEq.respectTransparency.types false in
/-- Every weakly fair execution of the program terminates, and every final state has every array of the launch
    at what the proof data computes and every other unscoped buffer as the launch found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs to the end, faults nowhere, and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans ((((dats m) 0 c).arrAt_in 0 rfl _).trans ((A_eq m c 0).trans (V_main_arg0 m c))),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.Kernel.Frm

end
-- ==== Proof.KI.Setup.lean ====
/-
  What the two runs of the layer body share. The program reshapes the three small parameters (the first layer's
  bias, the second layer's weight column, the second layer's bias) into rows, stacks them into one 3 × 128 array,
  and launches one grid of 25 points over row blocks of the adjacency matrix. Here: the buffers' contents when the
  grid is entered (the start contents after the five host operations), each window's block at a point, the one
  branch condition of the body (it holds at the first point only), and the staging and scratch memrefs the body
  is called with.
-/
import proofs.«102506_g26706106646738_cont_8to1_1738_24_alg».proof.Proof.Gen.KernelIdeal.Launch
import proofs.«102506_g26706106646738_cont_8to1_1738_24_alg».proof.Proof.Gen.KernelIdeal.Skeleton
import proofs.«102506_g26706106646738_cont_8to1_1738_24_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- Core `c`'s buffer contents when the grid is entered: the start contents after the five host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation before the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation before the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation before the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation before the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation before the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The branch condition -/

/-- The body's one branch: is this the first point of the grid? -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-! ## The memrefs the body is called with -/

/-- One staging buffer of the output window, through which its contents are stated. -/
abbrev VO0_4 : View sig .tc .vmem S400x1 .f32 := (Memref.whole cc0_stg4_0 : Memref sig .tc .vmem S400x1 .f32).view
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x1 .f32 := win0_4.stage (cfg0.slots t 4)
abbrev hs0_4 (t : Fin cfg0.N) : (ms0_4 t).IsWhole := hstage0_4 ((cfg0.slots t 4).cast nbuf0_4)
/-- The scratch operand: the product of the features with the first weight matrix, kept from the first point on. -/
abbrev scM0_0 : Memref sig .tc .vmem S10000x128 .f32 := Memref.whole cc0_scratch0
abbrev VS0_0 : View sig .tc .vmem S10000x128 .f32 := scM0_0.view

/-- The launch's invariant with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frm

end
-- ==== Proof.KI.RunFirst.lean ====
/-
  The layer body at the first grid point, where its branch is taken: it multiplies the features by the first
  weight matrix into the scratch buffer, then computes the block's output from the adjacency rows and that
  scratch. The run finds what the stores leave in the output's staging buffer and in the scratch, as pieces.
-/
import proofs.«102506_g26706106646738_cont_8to1_1738_24_alg».proof.Proof.KI.Setup

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs — the four inputs at their contents, the output's and the scratch at anything — the
    body, its branch taken, runs to the continuation holding the inputs as they were, the output's buffer with
    its pieces written and the scratch with its pieces written. -/
noncomputable def kernelRun0_A (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : cond0_0 i)
    (x0 : Vec F S10000x128 .f32) (x1 : Vec F S400x10000 .f32) (x2 : Vec F S128x128 .f32) (x3 : Vec F S3x128 .f32) :
    Σ' (L4 : List (View.Piece (Elt F) S400x1 .f32)), { LS0 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_body i arg1 harg1 arg2 harg2 arg3 harg3 arg4 harg4 arg5 harg5 arg6 harg6) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Frm

end
-- ==== Proof.KI.RunLater.lean ====
/-
  The layer body at a later grid point, where its branch is not taken: the scratch buffer already holds the
  product of the features with the first weight matrix and is only read. The run finds what the store leaves in
  the output's staging buffer, as pieces, and hands the scratch back as it was.
-/
import proofs.«102506_g26706106646738_cont_8to1_1738_24_alg».proof.Proof.KI.Setup

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs — the four inputs and the scratch at their contents, the output's at anything — the
    body, its branch not taken, runs to the continuation holding the inputs and the scratch as they were and the
    output's buffer with its pieces written. -/
noncomputable def kernelRun0_B (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : ¬cond0_0 i)
    (x0 : Vec F S10000x128 .f32) (x1 : Vec F S400x10000 .f32) (x2 : Vec F S128x128 .f32) (x3 : Vec F S3x128 .f32) (xs0 : Vec F S10000x128 .f32) :
    { L4 : List (View.Piece (Elt F) S400x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc0__gcn_body i arg1 harg1 arg2 harg2 arg3 harg3 arg4 harg4 arg5 harg5 arg6 harg6) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.KernelIdeal.Frm

end
-- ==== Proof.KI.Frame.lean ====
/-
  The frame of the program: what the output's staging buffer and the scratch hold after each grid point, the
  invariant that carries the scratch from point to point, the body's obligation at every point, and the run of
  the whole program. At the first point the body fills the scratch with the product of the features and the
  first weight matrix; at every later point it finds the scratch as the first point left it.
-/
import proofs.«102506_g26706106646738_cont_8to1_1738_24_alg».proof.Proof.KI.RunFirst
import proofs.«102506_g26706106646738_cont_8to1_1738_24_alg».proof.Proof.KI.RunLater

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's pieces for the output tile its block. -/
theorem cover0_A_4 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : cond0_0 i)
    (x0 : Vec F S10000x128 .f32) (x1 : Vec F S400x10000 .f32) (x2 : Vec F S128x128 .f32) (x3 : Vec F S3x128 .f32) (y : S400x1.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S400x1.size (by sl_kernel_rfl) y

/-- What the first point leaves in the output's staging buffer. -/
def out0_A_4 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : cond0_0 i)
    (x0 : Vec F S10000x128 .f32) (x1 : Vec F S400x10000 .f32) (x2 : Vec F S128x128 .f32) (x3 : Vec F S3x128 .f32) : Vec F S400x1 .f32 :=
  VO0_4.read (Elt F) (VO0_4.writes (Elt F) VO0_4.junk (kernelRun0_A c i arg1 harg1 arg2 harg2 arg3 harg3 arg4 harg4 arg5 harg5 arg6 harg6 hc0 x0 x1 x2 x3).1)

/-- The first point's pieces for the scratch tile it. -/
theorem scover0_A_0 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : cond0_0 i)
    (x0 : Vec F S10000x128 .f32) (x1 : Vec F S400x10000 .f32) (x2 : Vec F S128x128 .f32) (x3 : Vec F S3x128 .f32) (y : S10000x128.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S10000x128.size (by sl_kernel_rfl) y

/-- What the first point leaves in the scratch. -/
def sout0_A_0 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : cond0_0 i)
    (x0 : Vec F S10000x128 .f32) (x1 : Vec F S400x10000 .f32) (x2 : Vec F S128x128 .f32) (x3 : Vec F S3x128 .f32) : Vec F S10000x128 .f32 :=
  VS0_0.read (Elt F) (VS0_0.writes (Elt F) VS0_0.junk (kernelRun0_A c i arg1 harg1 arg2 harg2 arg3 harg3 arg4 harg4 arg5 harg5 arg6 harg6 hc0 x0 x1 x2 x3).2.1)

/-- A later point's pieces for the output tile its block. -/
theorem cover0_B_4 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : ¬cond0_0 i)
    (x0 : Vec F S10000x128 .f32) (x1 : Vec F S400x10000 .f32) (x2 : Vec F S128x128 .f32) (x3 : Vec F S3x128 .f32) (xs0 : Vec F S10000x128 .f32) (y : S400x1.Idx) :
    ∃ pc ∈ (kernelRun0_B c i arg1 harg1 arg2 harg2 arg3 harg3 arg4 harg4 arg5 harg5 arg6 harg6 hc0 x0 x1 x2 x3 xs0).1, y ∈ pc.1.set :=
  View.cover_of_tiledL (kernelRun0_B c i arg1 harg1 arg2 harg2 arg3 harg3 arg4 harg4 arg5 harg5 arg6 harg6 hc0 x0 x1 x2 x3 xs0).1 S400x1.size (by sl_kernel_rfl) y

/-- What a later point leaves in the output's staging buffer, the scratch holding `xs0`. -/
def out0_B_4 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : ¬cond0_0 i)
    (x0 : Vec F S10000x128 .f32) (x1 : Vec F S400x10000 .f32) (x2 : Vec F S128x128 .f32) (x3 : Vec F S3x128 .f32) (xs0 : Vec F S10000x128 .f32) : Vec F S400x1 .f32 :=
  VO0_4.read (Elt F) (VO0_4.writes (Elt F) VO0_4.junk (kernelRun0_B c i arg1 harg1 arg2 harg2 arg3 harg3 arg4 harg4 arg5 harg5 arg6 harg6 hc0 x0 x1 x2 x3 xs0).1)

/-! ## Point by point -/

/-- What the output's staging buffer and the scratch hold after the body at position `n`: at the first point what
    that case leaves; later the output from this point's blocks and the scratch the point before left, the scratch
    itself unchanged. -/
def outsAt0 (c : Dev nD) : (n : ℕ) → n < cfg0.N → Vec F S400x1 .f32 × Vec F S10000x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩))
  | n + 1, hn => (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
                  (outsAt0 c n (Nat.lt_of_succ_lt hn)).2)

theorem outsAt0_A (c : Dev nD) (t : Fin cfg0.N) (h0 : t.val = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t),
              sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2,
              (outsAt0 m c (t.val - 1) (Nat.lt_of_le_of_lt (Nat.sub_le _ _) t.isLt)).2) := by
  obtain ⟨n, hn⟩ := t
  cases n with
  | zero => exact absurd rfl h0
  | succ n => exact rfl

/-- The invariant before position `n`: before the first point the scratch holds anything; afterwards what the
    point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; at the first point the scratch holds anything
    and is taken back at what the body stored, at a later point it holds what the point before left and is taken
    back unchanged; the output's buffer is taken back at the point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases hz : t.val = 0
  · rw [outsAt0_A m c t hz]
    unfold out0_A_4 sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _)
  · rw [outsAt0_B m c t hz]
    unfold out0_B_4; (try dsimp only)
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => hz ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 25 := N_0; omega)

/-! ## The run -/

set_option backward.isDefEq.respectTransparency.types false in
/-- Every weakly fair execution of the program terminates, and every final state has every array of the launch
    at what the proof data computes and every other unscoped buffer as the launch found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs to the end, faults nowhere, and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans ((((dats m) 0 c).arrAt_in 0 rfl _).trans ((A_eq m c 0).trans (V_main_arg0 m c))),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.KernelIdeal.Frm

end
-- ==== Proof.KI.Pieces.lean ====
/-
  What the runs found, read as the body's two pure values. At the first point the scratch ends holding the product
  of the features block and the weight block, and the output's buffer the second value of the parameter rows, the
  adjacency block and that product; at a later point the output's buffer holds the second value of the parameter
  rows, the adjacency block and the scratch as the point found it. The three parameter rows are the three
  sub-rectangles of the stacked 3 × 128 block: row 0, row 1, and the first cell of row 2.
-/
import proofs.«102506_g26706106646738_cont_8to1_1738_24_alg».proof.Proof.KI.Frame
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- Row 0 of the stacked parameter block: the first layer's bias. -/
abbrev prow0 (x3 : Vec F S3x128 .f32) : Vec F S1x128 .f32 := View.ld x3 (Rect.unit ![0, 0] ![1, 128] inb_S3x128_S1x128_0_0)
/-- Row 1: the second layer's weight column, as a row. -/
abbrev prow1 (x3 : Vec F S3x128 .f32) : Vec F S1x128 .f32 := View.ld x3 (Rect.unit ![1, 0] ![1, 128] inb_S3x128_S1x128_1_0)
/-- The first cell of row 2: the second layer's bias. -/
abbrev pcell2 (x3 : Vec F S3x128 .f32) : Vec F S1x1 .f32 := View.ld x3 (Rect.unit ![2, 0] ![1, 1] inb_S3x128_S1x1_2_0)

/-- A later point leaves in the output's buffer the second value of the parameter rows, the adjacency block and the
    scratch it found. -/
theorem out_B (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : ¬cond0_0 i)
    (x0 : Vec F S10000x128 .f32) (x1 : Vec F S400x10000 .f32) (x2 : Vec F S128x128 .f32) (x3 : Vec F S3x128 .f32) (xs0 : Vec F S10000x128 .f32) :
    out0_B_4 c i arg1 harg1 arg2 harg2 arg3 harg3 arg4 harg4 arg5 harg5 arg6 harg6 hc0 x0 x1 x2 x3 xs0 = k0_pay2 (prow0 x3) (prow1 x3) (pcell2 x3) x1 xs0 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  rw [View.canon_unit_zero (S := S400x1) hz]
  simp only [View.readAt_eq_ld, harg4.read_unread, harg2.read_unread, harg6.read_unread, View.ld_unit_zero (S := S400x10000) hz, View.ld_unit_zero (S := S10000x128) hz]

/-- The first point leaves in the scratch the product of the features block and the weight block. -/
theorem sout_A (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : cond0_0 i)
    (x0 : Vec F S10000x128 .f32) (x1 : Vec F S400x10000 .f32) (x2 : Vec F S128x128 .f32) (x3 : Vec F S3x128 .f32) : sout0_A_0 c i arg1 harg1 arg2 harg2 arg3 harg3 arg4 harg4 arg5 harg5 arg6 harg6 hc0 x0 x1 x2 x3 = k0_pay1 x0 x2 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero (S := S10000x128) hz]
  simp only [View.readAt_eq_ld, harg1.read_unread, harg3.read_unread, View.ld_unit_zero (S := S10000x128) hz, View.ld_unit_zero (S := S128x128) hz]

/-- The first point leaves in the output's buffer the second value of the parameter rows, the adjacency block and
    that product. -/
theorem out_A (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S400x1 .f32) (harg5 : arg5.IsWhole) (arg6 : Memref sig .tc .vmem S10000x128 .f32) (harg6 : arg6.IsWhole) (hc0 : cond0_0 i)
    (x0 : Vec F S10000x128 .f32) (x1 : Vec F S400x10000 .f32) (x2 : Vec F S128x128 .f32) (x3 : Vec F S3x128 .f32) : out0_A_4 c i arg1 harg1 arg2 harg2 arg3 harg3 arg4 harg4 arg5 harg5 arg6 harg6 hc0 x0 x1 x2 x3 = k0_pay2 (prow0 x3) (prow1 x3) (pcell2 x3) x1 (k0_pay1 x0 x2) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero (S := S400x1) hz, View.readCov_unit_zero (S := S10000x128) _ hz]
  simp only [View.readAt_eq_ld, harg1.read_unread, harg2.read_unread, harg3.read_unread, harg4.read_unread, View.ld_unit_zero (S := S400x10000) hz, View.ld_unit_zero (S := S10000x128) hz, View.ld_unit_zero (S := S128x128) hz]

end Cert.KernelIdeal.Frm

end
-- ==== Proof.RealVals.lean ====
/-
  Real numbers inside the extended reals. A value is real when it is neither infinity; sums, products and maxima
  of reals are real, and so is a finite sum of reals. On a real logit `v` the log-softmax over a single class,
  `(v - v) - log (exp (v - v))`, is `0`: the difference is `0`, its exponential `1`, and the logarithm of `1`
  is `0`. On an infinite logit the difference is not `0`, which is why the finiteness of the inputs is needed.
-/
import Idealize.ShloMosaic.Lib.ValueIdx
import Idealize.ShloMosaic.Lib.Pipeline.Value
import Idealize.ShloMosaic.PureOps.Ideal.Laws

noncomputable section

open scoped BigOperators

namespace Cert.RealVals

open Idealize.ShloMosaic Idealize.ShloMosaic.ValueIdx

/-- An extended real that is a real number. -/
def IsReal (v : EReal) : Prop := ∃ r : ℝ, v = (r : EReal)

theorem IsReal.zero : IsReal 0 := ⟨0, EReal.coe_zero.symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  rcases le_total a b with h | h
  · rw [max_eq_right h]; exact hb
  · rw [max_eq_left h]; exact ha

theorem IsReal.sum {ι : Type} (s : Finset ι) (f : ι → EReal) (h : ∀ i ∈ s, IsReal (f i)) : IsReal (∑ i ∈ s, f i) :=
  Finset.sum_induction f IsReal (fun _ _ ha hb => ha.add hb) IsReal.zero h

/-- A real is above minus infinity, so the maximum with minus infinity is the real itself. -/
theorem max_bot_left (a : EReal) : Max.max ⊥ a = a := max_eq_right bot_le
theorem max_bot_right (a : EReal) : Max.max a ⊥ = a := max_eq_left bot_le

theorem IsReal.sub_self {a : EReal} (ha : IsReal a) : a - a = 0 := by
  obtain ⟨x, rfl⟩ := ha
  rw [← EReal.coe_sub, _root_.sub_self, EReal.coe_zero]

theorem exp_zero : Ideal.exp 0 = 1 := by
  rw [← EReal.coe_zero, Ideal.exp_coe, Real.exp_zero, EReal.coe_one]

theorem log_one : Ideal.log 1 = 0 := by
  rw [← EReal.coe_one, Ideal.log_coe, if_neg (by norm_num), Real.log_one, EReal.coe_zero]

/-- The pattern of minus infinity denotes the bottom of the extended reals. -/
theorem ofBits_neg_inf : Ideal.ofBits .f32 0xFF800000#32 = ⊥ := by simp [Ideal.ofBits, Ideal.ieee]

/-- The pattern of plus infinity denotes the top. -/
theorem ofBits_pos_inf : Ideal.ofBits .f32 0x7F800000#32 = ⊤ := by simp [Ideal.ofBits, Ideal.ieee]

/-- The log-softmax over a single class of a real logit is zero. -/
theorem logsoftmax_one {v : EReal} (hv : IsReal v) : (v - v) - Ideal.log (Ideal.exp (v - v)) = 0 := by
  rw [hv.sub_self, exp_zero, log_one, sub_zero]

/-- An array all of whose entries are real. -/
def AllReal {s : Shape} (v : s.Idx → EReal) : Prop := ∀ i, IsReal (v i)

/-- An extended real whose absolute value is below plus infinity is real. -/
theorem isReal_of_abs_lt_top {x : EReal} (h : Max.max x (-x) < ⊤) : IsReal x := by
  induction x using EReal.rec with
  | bot => exact absurd h (by simp)
  | coe r => exact ⟨r, rfl⟩
  | top => exact absurd h (by simp)

/-- The precondition's test of one entry, `|x| < +inf` as a comparison of extended reals, says the entry is real. -/
theorem isReal_of_cmp {x : EReal}
    (h : FloatOps.cmpf (F := Ideal) (φ := .f32) .olt (FloatOps.hostAbsf x) (Ideal.ofBits .f32 0x7F800000#32) = 1#1) : IsReal x := by
  rw [Ideal.cmpf_def, Ideal.hostAbsf_def, Ideal.absf_def, ofBits_pos_inf] at h
  induction x using EReal.rec with
  | bot => simp [Ideal.cmp] at h
  | coe r => exact ⟨r, rfl⟩
  | top => simp [Ideal.cmp] at h

end Cert.RealVals

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.KI.Payload.lean ====
/-
  The two pure values the layer body stores, read on the extended reals. The first is the product of the features
  with the first weight matrix: real when both are. The second is, row by row of the block, the log-softmax over a
  single class of the logit `sum_k max (sum_l adj(r,l) * s(l,k) + b0(k)) 0 * w1(k) + b1`: the logit is real when
  the adjacency rows, the scratch `s` and the three parameter rows are, and the log-softmax of a real logit over
  one class is zero. So the second value is the zero column.
-/
import proofs.«102506_g26706106646738_cont_8to1_1738_24_alg».proof.Proof.Gen.KernelIdeal.Skeleton
import proofs.«102506_g26706106646738_cont_8to1_1738_24_alg».proof.Proof.RealVals
import proofs.«102506_g26706106646738_cont_8to1_1738_24_alg».proof.Proof.LibKeepdims
import proofs.«102506_g26706106646738_cont_8to1_1738_24_alg».proof.Proof.LibRowMax

noncomputable section

open scoped BigOperators

namespace Cert.KernelIdeal.Val

open Idealize.ShloMosaic Idealize.ShloMosaic.ValueIdx Cert.KernelIdeal Cert.KernelIdeal.Gen Cert.RealVals Cert.LibKeepdims Cert.LibRowMax

variable {F : FTy → Type} [FloatOps F]

/-- The block's logits column: the hidden layer's row times the second weight column, plus the second bias. -/
def logits (v3 v5 : FVec F S1x128 .f32) (v7 : FVec F S1x1 .f32) (v9 : FVec F S400x10000 .f32) (v10 : FVec F S10000x128 .f32) : FVec F S400x1 .f32 :=
  addf (shapeCast S400x1 (multiReduction .add [1] S400
      (mulf (maximumf (addf (matmul dot_S400x10000_S10000x128_S400x128_1_0_0_1_n_n none v9 v10 (constant S400x128 .f32 0x00000000#32))
                (broadcastTo S400x128 (shapeCast S1x128 v3 shapeCasts_S1x128_S1x128) broadcasts_S1x128_S400x128))
              (broadcast S400x128 (Scalar.ofBits .f32 0x00000000#32)))
            (broadcastTo S400x128 (shapeCast S1x128 v5 shapeCasts_S1x128_S1x128) broadcasts_S1x128_S400x128))
      0x00000000#32 reduces_S400x128_S400 (.inl rfl) rfl) shapeCasts_S400_S400x1)
    (broadcastTo S400x1 (shapeCast S1x1 v7 shapeCasts_S1x1_S1x1) broadcasts_S1x1_S400x1)

/-- Each row's maximum over its single entry, as a column. -/
def rowMax (z : FVec F S400x1 .f32) : FVec F S400x1 .f32 :=
  shapeCast S400x1 (multiReduction .maximumf [1] S400 z 0xFF800000#32 reduces_S400x1_S400 (.inl rfl) rfl) shapeCasts_S400_S400x1

/-- The logits less their row maximum. -/
def shifted (z : FVec F S400x1 .f32) : FVec F S400x1 .f32 := subf z (rowMax z)

/-- Each row's sum of exponentials over its single entry, as a column. -/
def rowSumExp (z : FVec F S400x1 .f32) : FVec F S400x1 .f32 :=
  shapeCast S400x1 (multiReduction .add [1] S400 (exp (shifted z)) 0x00000000#32 reduces_S400x1_S400 (.inl rfl) rfl) shapeCasts_S400_S400x1

/-- The log-softmax of a column over its single class. -/
def lsm (z : FVec F S400x1 .f32) : FVec F S400x1 .f32 := subf (shifted z) (log (rowSumExp z))

/-- The second stored value is the log-softmax of the logits column. -/
theorem pay2_eq (v3 v5 : FVec F S1x128 .f32) (v7 : FVec F S1x1 .f32) (v9 : FVec F S400x10000 .f32) (v10 : FVec F S10000x128 .f32) :
    k0_pay2 v3 v5 v7 v9 v10 = lsm (logits v3 v5 v7 v9 v10) := rfl

/-- Realness moves along an equation. -/
theorem IsReal.of_eq {a b : EReal} (h : a = b) (hb : IsReal b) : IsReal a := h ▸ hb

/-- The product of real features with a real weight matrix is real. -/
theorem pay1_real (v31 : FVec Ideal S10000x128 .f32) (v32 : FVec Ideal S128x128 .f32) (h31 : AllReal v31) (h32 : AllReal v32) :
    AllReal (k0_pay1 (F := Ideal) v31 v32) := by
  intro j
  have e : k0_pay1 (F := Ideal) v31 v32 j
      = ∑ k, v31 (dot_S10000x128_S128x128_S10000x128_1_0_0_1_n_n.lhsIdx j k) * v32 (dot_S10000x128_S128x128_S10000x128_1_0_0_1_n_n.rhsIdx j k) := by
    unfold k0_pay1
    simp only [shapeCast_self]
    exact Ideal.matmul_constant_zero_apply _ _ _ _ j
  rw [e]
  exact IsReal.sum _ _ fun k _ => (h31 _).mul (h32 _)

/-- The logits column is real when the adjacency rows, the scratch and the parameter rows are. -/
theorem logits_real (v3 v5 : FVec Ideal S1x128 .f32) (v7 : FVec Ideal S1x1 .f32) (v9 : FVec Ideal S400x10000 .f32) (v10 : FVec Ideal S10000x128 .f32)
    (h3 : AllReal v3) (h5 : AllReal v5) (h7 : AllReal v7) (h9 : AllReal v9) (h10 : AllReal v10) :
    AllReal (logits (F := Ideal) v3 v5 v7 v9 v10) := by
  intro j
  obtain ⟨r, u, rfl⟩ : ∃ (r : Fin 400) (u : Fin 1), j = ix2 r u := ⟨j 0, j 1, eq_ix2 j⟩
  unfold logits
  rw [addf_apply]
  refine IsReal.add ?_ ?_
  · refine IsReal.of_eq (shapeCast_a_a1_apply _ _ r u) ?_
    refine IsReal.of_eq (multiReduction_add_rows _ _ _ _ _ r) ?_
    refine IsReal.sum _ _ fun d _ => ?_
    rw [mulf_apply, maximumf_apply, addf_apply]
    refine IsReal.mul (IsReal.max (IsReal.add ?_ ?_) ?_) ?_
    · refine IsReal.of_eq (Ideal.matmul_constant_zero_apply _ _ _ _ _) ?_
      exact IsReal.sum _ _ fun k _ => (h9 _).mul (h10 _)
    · unfold broadcastTo shapeCast; exact h3 _
    · show IsReal (Ideal.ofBits .f32 0x00000000#32)
      rw [Ideal.ofBits_zero_f32]; exact IsReal.zero
    · unfold broadcastTo shapeCast; exact h5 _
  · unfold broadcastTo shapeCast; exact h7 _

/-- The maximum of a row over its single entry is the entry. -/
theorem rowMax_apply (z : FVec Ideal S400x1 .f32) (r : Fin 400) : rowMax (F := Ideal) z (ix2 r 0) = z (ix2 r 0) := by
  unfold rowMax
  refine (shapeCast_a_a1_apply _ _ r 0).trans ?_
  refine (multiReduction_maximumf_rows z _ _ _ _ r).trans ?_
  rw [Finset.univ_unique, Finset.fold_singleton, ofBits_neg_inf, max_bot_right]
  rfl

/-- On a real column the log-softmax over the single class is the zero column. -/
theorem lsm_zero (z : FVec Ideal S400x1 .f32) (hz : AllReal z) : lsm (F := Ideal) z = fun _ => 0 := by
  funext j
  obtain ⟨r, u, rfl⟩ : ∃ (r : Fin 400) (u : Fin 1), j = ix2 r u := ⟨j 0, j 1, eq_ix2 j⟩
  obtain rfl : u = 0 := Subsingleton.elim _ _
  have hs : shifted (F := Ideal) z (ix2 r 0) = 0 := by
    unfold shifted
    rw [subf_apply, rowMax_apply]
    exact (hz _).sub_self
  have hsum : rowSumExp (F := Ideal) z (ix2 r 0) = 1 := by
    unfold rowSumExp
    refine (shapeCast_a_a1_apply _ _ r 0).trans ?_
    refine (multiReduction_add_rows _ _ _ _ _ r).trans ?_
    rw [Fin.sum_univ_one]
    show Ideal.exp (shifted (F := Ideal) z (ix2 r 0)) = 1
    rw [hs, exp_zero]
  show shifted (F := Ideal) z (ix2 r 0) - Ideal.log (rowSumExp (F := Ideal) z (ix2 r 0)) = 0
  rw [hs, hsum, log_one, sub_zero]

/-- The second stored value is the zero column when everything it reads is real. -/
theorem pay2_zero (v3 v5 : FVec Ideal S1x128 .f32) (v7 : FVec Ideal S1x1 .f32) (v9 : FVec Ideal S400x10000 .f32) (v10 : FVec Ideal S10000x128 .f32)
    (h3 : AllReal v3) (h5 : AllReal v5) (h7 : AllReal v7) (h9 : AllReal v9) (h10 : AllReal v10) :
    k0_pay2 (F := Ideal) v3 v5 v7 v9 v10 = fun _ => 0 := by
  rw [pay2_eq]
  exact lsm_zero _ (logits_real v3 v5 v7 v9 v10 h3 h5 h7 h9 h10)

end Cert.KernelIdeal.Val

end
-- ==== Proof.LibNary3.lean ====
/-
  A host operation over a LITERAL family of three operands (a concatenation of three arrays): after it the result
  buffer holds the operation's function of the three operands' contents, each read AT ITS OWN REFERENCE, so that
  what each operand held can be read in turn. General in the references and the function.
-/
import Idealize.ShloMosaic.Lib.StableHlo.Run

noncomputable section

namespace Cert.LibNary3

open Idealize.ShloMosaic Idealize.ShloMosaic.StableHlo

variable {τ : Topo} {sig : RefSig} {Val : EltTy → Type}

/-- The result of a three-operand host operation at its result buffer: its function of the operands' contents, the
    family spelt operand by operand. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.KI.Value.lean ====
/-
  The idealized program's result. With every input entry real: the stacked parameter block the launch finds is
  real (it is the three reshaped parameters, stacked); so every block of every input window is real; so, point
  by point, the scratch holds a real array from the first point on and the output's buffer holds the zero column
  (the log-softmax over one class of a real logit). The output's blocks tile the result array, row block by row
  block, so the result array ends as the zero column.
-/
import proofs.«102506_g26706106646738_cont_8to1_1738_24_alg».proof.Proof.KI.Pieces
import proofs.«102506_g26706106646738_cont_8to1_1738_24_alg».proof.Proof.KI.Payload
import proofs.«102506_g26706106646738_cont_8to1_1738_24_alg».proof.Proof.LibNary3
import Idealize.ShloMosaic.Lib.StableHlo.Run
import Idealize.ShloMosaic.Lib.Pipeline.Value

set_option maxRecDepth 16384

noncomputable section

namespace Cert.KernelIdeal.Val

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.Frm Cert.RealVals Cert.LibNary3

variable (m : (ℓ : Loc nD τ sig) → Buf (Elt Ideal) ℓ) (ρ : Dev nD → PrngReg)

/-- Every entry of each of the six inputs on core `c` is real. -/
def InputsReal (c : Dev nD) : Prop :=
  AllReal (s := S10000x128) (m ((c : Thread nD τ).loc main_arg0)) ∧ AllReal (s := S10000x10000) (m ((c : Thread nD τ).loc main_arg1))
  ∧ AllReal (s := S128x128) (m ((c : Thread nD τ).loc main_arg2)) ∧ AllReal (s := S128) (m ((c : Thread nD τ).loc main_arg3))
  ∧ AllReal (s := S128x1) (m ((c : Thread nD τ).loc main_arg4)) ∧ AllReal (s := S1) (m ((c : Thread nD τ).loc main_arg5))

/-- A stack of real arrays is real: each entry of a concatenation is an entry of one of its pieces. -/
theorem concatenate_real (t : Shape) (a : Fin t.rank) (xs : List ((s : Shape) × (s.Idx → EReal))) (h : Shape.Concatenates (xs.map (·.1)) t a)
    (hxs : ∀ p ∈ xs, ∀ i, IsReal (p.2 i)) : AllReal (concatenate t a xs h) := by
  intro j
  unfold concatenate
  exact hxs _ (List.getElem_mem _) _

/-- The stacked parameter block as the launch finds it: the first bias as a row, the second weight column as a row,
    and the second bias broadcast along a row. -/
theorem V4_eq (c : Dev nD) :
    (V m c main_v4 : S3x128.Idx → EReal)
      = concatenate S3x128 0 [⟨S1x128, shapeCast S1x128 (m ((c : Thread nD τ).loc main_arg3)) shapeCasts_S128_S1x128⟩,
          ⟨S1x128, shapeCast S1x128 (m ((c : Thread nD τ).loc main_arg4)) shapeCasts_S128x1_S1x128⟩,
          ⟨S1x128, broadcastInDim S1x128 ![0, 1] bcast_S1x1_S1x128_0_1 (shapeCast S1x1 (m ((c : Thread nD τ).loc main_arg5)) shapeCasts_S1_S1x1)⟩]
        concatenates_S1x128_S1x128_S1x128_S3x128_d0 := by
  dsimp only [V, hostOps0]
  simp only [after_cons, after_nil]
  rw [nary3_result]
  repeat (first
    | rw [unary_result] | rw [reshape_result]
    | (rw [unary_result_ne]; rotate_left; decide)
    | (rw [reshape_result_ne]; rotate_left; decide))
  rfl

theorem V4_real (c : Dev nD) (h : InputsReal m c) : AllReal (s := S3x128) (V m c main_v4) := by
  obtain ⟨-, -, -, h3, h4, h5⟩ := h
  rw [V4_eq]
  refine concatenate_real _ _ _ _ ?_
  intro p hp i
  simp only [List.mem_cons, List.mem_nil_iff, or_false] at hp
  rcases hp with rfl | rfl | rfl
  · dsimp only; unfold shapeCast; exact h3 _
  · dsimp only; unfold shapeCast; exact h4 _
  · dsimp only; unfold broadcastInDim shapeCast; exact h5 _

/-! ## Every block of every input window is real -/

theorem iblk0_real (c : Dev nD) (h : InputsReal m c) (t : Fin cfg0.N) : AllReal (s := S10000x128) (iblk m c 0 t) := fun y => by
  have hV : AllReal (s := S10000x128) (V m c main_arg0) := by rw [V_main_arg0]; exact h.1
  show IsReal (V m c main_arg0 (((cfg0.win 0).blk t).view.emb y))
  exact hV _

theorem iblk1_real (c : Dev nD) (h : InputsReal m c) (t : Fin cfg0.N) : AllReal (s := S400x10000) (iblk m c 1 t) := fun y => by
  have hV : AllReal (s := S10000x10000) (V m c main_arg1) := by rw [V_main_arg1]; exact h.2.1
  show IsReal (V m c main_arg1 (((cfg0.win 1).blk t).view.emb y))
  exact hV _

theorem iblk2_real (c : Dev nD) (h : InputsReal m c) (t : Fin cfg0.N) : AllReal (s := S128x128) (iblk m c 2 t) := fun y => by
  have hV : AllReal (s := S128x128) (V m c main_arg2) := by rw [V_main_arg2]; exact h.2.2.1
  show IsReal (V m c main_arg2 (((cfg0.win 2).blk t).view.emb y))
  exact hV _

theorem iblk3_real (c : Dev nD) (h : InputsReal m c) (t : Fin cfg0.N) : AllReal (s := S3x128) (iblk m c 3 t) := fun y => by
  show IsReal (V m c main_v4 (((cfg0.win 3).blk t).view.emb y))
  exact V4_real m c h _

/-- The three parameter rows of a real block are real. -/
theorem prow0_real (x3 : FVec Ideal S3x128 .f32) (h : AllReal x3) : AllReal (prow0 (F := Ideal) x3) := fun y => h _
theorem prow1_real (x3 : FVec Ideal S3x128 .f32) (h : AllReal x3) : AllReal (prow1 (F := Ideal) x3) := fun y => h _
theorem pcell2_real (x3 : FVec Ideal S3x128 .f32) (h : AllReal x3) : AllReal (pcell2 (F := Ideal) x3) := fun y => h _

/-! ## Point by point -/

/-- After every point the output's buffer holds the zero column and the scratch a real array. -/
theorem outs_spec (c : Dev nD) (h : InputsReal m c) :
    ∀ (n : ℕ) (hn : n < cfg0.N), (outsAt0 m c n hn).1 = (fun _ => (0 : EReal)) ∧ AllReal (s := S10000x128) (outsAt0 m c n hn).2 := by
  intro n
  induction n with
  | zero =>
    intro hn
    have hs : AllReal (s := S10000x128) (k0_pay1 (F := Ideal) (iblk m c 0 ⟨0, hn⟩) (iblk m c 2 ⟨0, hn⟩)) :=
      pay1_real _ _ (iblk0_real m c h _) (iblk2_real m c h _)
    rw [outsAt0_A m c ⟨0, hn⟩ rfl]
    refine ⟨?_, ?_⟩
    · refine (out_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩)).trans ?_
      exact pay2_zero _ _ _ _ _ (prow0_real _ (iblk3_real m c h _)) (prow1_real _ (iblk3_real m c h _)) (pcell2_real _ (iblk3_real m c h _)) (iblk1_real m c h _) hs
    · refine (sout_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩)) ▸ ?_
      exact hs
  | succ n ih =>
    intro hn
    obtain ⟨-, ihr⟩ := ih (Nat.lt_of_succ_lt hn)
    rw [outsAt0_B m c ⟨n + 1, hn⟩ (Nat.succ_ne_zero n)]
    refine ⟨?_, ihr⟩
    refine (out_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h' => Nat.succ_ne_zero n ((hcond0_0 ⟨n + 1, hn⟩).mp h')) (iblk m c 0 ⟨n + 1, hn⟩) (iblk m c 1 ⟨n + 1, hn⟩) (iblk m c 2 ⟨n + 1, hn⟩) (iblk m c 3 ⟨n + 1, hn⟩) _).trans ?_
    exact pay2_zero _ _ _ _ _ (prow0_real _ (iblk3_real m c h _)) (prow1_real _ (iblk3_real m c h _)) (pcell2_real _ (iblk3_real m c h _)) (iblk1_real m c h _) ihr

/-! ## From the blocks to the result array -/

/-- The output window's block index at point `t` is `(t, 0)`. -/
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- An index of the result array is in point `t`'s block iff each coordinate is in the block's range on its axis. -/
theorem mem_blk4 (t : Fin cfg0.N) (i : S10000x1.Idx) :
    i ∈ ((cfg0.win 4).blk t).view.set ↔ ∀ a : Fin 2, win0_4.index t a * S400x1.size a ≤ (i a).val ∧ (i a).val < win0_4.index t a * S400x1.size a + S400x1.size a := by
  show i ∈ ((View.whole main_v5).slice (win0_4.rect t)).set ↔ _
  rw [View.set_slice_whole, Rect.mem_set_unit]
  exact Iff.rfl

/-- What point `t` writes back is block `t` of the zero column. -/
theorem flushed_eq (c : Dev nD) (h : InputsReal m c) (t : Fin cfg0.N) :
    (dats m 0 c).flushed 4 t = ((cfg0.win 4).blk t).view.read (Elt Ideal) (fun _ => (0 : EReal)) := by
  show (cfg0.win 4).cut (grid0.coords t) ((dats m 0 c).after 4 t) = _
  rw [after0_4, (outs_spec m c h t.val t.isLt).1]
  rfl

/-- Every row of the result array is in the block of the point its row block names. -/
theorem cover4 (i : S10000x1.Idx) : ∃ t : Fin cfg0.N, (cfg0.win 4).flush t = true ∧ i ∈ ((cfg0.win 4).blk t).view.set := by
  have hi0 : (i 0).val < 10000 := (i 0).isLt
  have hi1 : (i 1).val < 1 := (i 1).isLt
  have hN : cfg0.N = 25 := N_0
  refine ⟨⟨(i 0).val / 400, by rw [hN]; omega⟩, flush0_4 _, ?_⟩
  rw [mem_blk4]
  obtain ⟨e0, e1⟩ := idx4 ⟨(i 0).val / 400, by rw [hN]; omega⟩
  intro a
  match a with
  | ⟨0, _⟩ =>
    show win0_4.index _ (0 : Fin 2) * 400 ≤ (i 0).val ∧ (i 0).val < win0_4.index _ (0 : Fin 2) * 400 + 400
    rw [e0]; dsimp only; omega
  | ⟨1, _⟩ =>
    show win0_4.index _ (1 : Fin 2) * 1 ≤ (i 1).val ∧ (i 1).val < win0_4.index _ (1 : Fin 2) * 1 + 1
    rw [e1]; omega

/-- The result array ends as the zero column. -/
theorem final4 (c : Dev nD) (h : InputsReal m c) : (dats m 0 c).arrAt 4 cfg0.N = (fun _ => (0 : EReal)) :=
  (dats m 0 c).arrAt_eq_of_cover 4 (fun _ => (0 : EReal)) (fun t _ => flushed_eq m c h t) (cover4)

/-- The idealized program's run: it ends with the zero column in its result and its arguments unchanged. -/
theorem run (h : ∀ c, InputsReal m c) : θ_run defs (onTc (τ := τ) (main (F := Ideal))) ⟨m, fun _ => 0, ρ⟩ (fun r => ∀ c : Dev nD,
      r.2.mem ((c.tc : Thread nD τ).loc main_v5) = (fun _ => (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hr c => ⟨((hr c).1 4).trans (final4 m c (h c)),
      ((hr c).1 0).trans ((((dats m) 0 c).arrAt_in 0 rfl _).trans ((A_eq m c 0).trans (V_main_arg0 m c))),
      ((hr c).1 1).trans ((((dats m) 0 c).arrAt_in 1 rfl _).trans ((A_eq m c 1).trans (V_main_arg1 m c))),
      ((hr c).1 2).trans ((((dats m) 0 c).arrAt_in 2 rfl _).trans ((A_eq m c 2).trans (V_main_arg2 m c))),
      ((hr c).2 main_arg3 (Pipeline.mem_restRefs_of main_arg3 (by decide) (by decide))).trans (V_main_arg3 m c),
      ((hr c).2 main_arg4 (Pipeline.mem_restRefs_of main_arg4 (by decide) (by decide))).trans (V_main_arg4 m c),
      ((hr c).2 main_arg5 (Pipeline.mem_restRefs_of main_arg5 (by decide) (by decide))).trans (V_main_arg5 m c)⟩) (run_main m ρ)

end Cert.KernelIdeal.Val

end
-- ==== Proof.RefValue.lean ====
/-
  The reference, stage by stage on the extended reals. Its logits column is the adjacency matrix times the hidden
  layer's projection, plus the second bias: every entry a finite sum of products of real inputs, so real. The
  log-softmax that follows takes each row's maximum over its single entry (the entry itself), subtracts it (zero),
  exponentiates (one), sums the single entry (one), takes the logarithm (zero) and subtracts: the zero column.
-/
import proofs.«102506_g26706106646738_cont_8to1_1738_24_alg».proof.Proof.Gen.ReferenceIdeal.Read
import proofs.«102506_g26706106646738_cont_8to1_1738_24_alg».proof.Proof.RealVals
import proofs.«102506_g26706106646738_cont_8to1_1738_24_alg».proof.Proof.LibRowMax

noncomputable section

open scoped BigOperators

namespace Cert.ReferenceIdeal.RefValue

open Idealize.ShloMosaic Idealize.ShloMosaic.ValueIdx Cert.ReferenceIdeal Cert.ReferenceIdeal.Gen Cert.ReferenceIdeal.Read Cert.RealVals Cert.LibRowMax

theorem IsReal.of_eq {a b : EReal} (h : a = b) (hb : IsReal b) : IsReal a := h ▸ hb

/-- The features times the first weight matrix. -/
theorem v0_real (x0 : FVec Ideal S10000x128 .f32) (x1 : FVec Ideal S10000x10000 .f32) (x2 : FVec Ideal S128x128 .f32) (x3 : FVec Ideal S128 .f32) (x4 : FVec Ideal S128x1 .f32) (x5 : FVec Ideal S1 .f32) (h0 : AllReal x0) (h1 : AllReal x1) (h2 : AllReal x2) (h3 : AllReal x3) (h4 : AllReal x4) (h5 : AllReal x5) : AllReal (val_main_v0 (F := Ideal) x0 x2) := fun i => by
  rw [val_main_v0_apply]
  exact IsReal.sum _ _ fun k _ => (h0 _).mul (h2 _)

/-- The adjacency matrix times that. -/
theorem v1_real (x0 : FVec Ideal S10000x128 .f32) (x1 : FVec Ideal S10000x10000 .f32) (x2 : FVec Ideal S128x128 .f32) (x3 : FVec Ideal S128 .f32) (x4 : FVec Ideal S128x1 .f32) (x5 : FVec Ideal S1 .f32) (h0 : AllReal x0) (h1 : AllReal x1) (h2 : AllReal x2) (h3 : AllReal x3) (h4 : AllReal x4) (h5 : AllReal x5) : AllReal (val_main_v1 (F := Ideal) x0 x1 x2) := fun i => by
  rw [val_main_v1_apply]
  exact IsReal.sum _ _ fun k _ => (h1 _).mul (v0_real x0 x1 x2 x3 x4 x5 h0 h1 h2 h3 h4 h5 _)

/-- The first bias, broadcast over the rows. -/
theorem v3_real (x0 : FVec Ideal S10000x128 .f32) (x1 : FVec Ideal S10000x10000 .f32) (x2 : FVec Ideal S128x128 .f32) (x3 : FVec Ideal S128 .f32) (x4 : FVec Ideal S128x1 .f32) (x5 : FVec Ideal S1 .f32) (h0 : AllReal x0) (h1 : AllReal x1) (h2 : AllReal x2) (h3 : AllReal x3) (h4 : AllReal x4) (h5 : AllReal x5) : AllReal (val_main_v3 (F := Ideal) x3) := fun i => by
  rw [val_main_v3_apply, val_main_v2_apply]
  exact h3 _

/-- The hidden layer before the rectifier. -/
theorem v4_real (x0 : FVec Ideal S10000x128 .f32) (x1 : FVec Ideal S10000x10000 .f32) (x2 : FVec Ideal S128x128 .f32) (x3 : FVec Ideal S128 .f32) (x4 : FVec Ideal S128x1 .f32) (x5 : FVec Ideal S1 .f32) (h0 : AllReal x0) (h1 : AllReal x1) (h2 : AllReal x2) (h3 : AllReal x3) (h4 : AllReal x4) (h5 : AllReal x5) : AllReal (val_main_v4 (F := Ideal) x0 x1 x2 x3) := fun i => by
  rw [val_main_v4_apply]
  show IsReal (_ + _)
  exact (v1_real x0 x1 x2 x3 x4 x5 h0 h1 h2 h3 h4 h5 _).add (v3_real x0 x1 x2 x3 x4 x5 h0 h1 h2 h3 h4 h5 _)

/-- The zero the rectifier compares with. -/
theorem v5_real : AllReal (val_main_v5 (F := Ideal)) := fun i => by
  rw [val_main_v5_apply, val_main_cst_apply]
  show IsReal (Ideal.ofBits .f32 0x00000000#32)
  rw [Ideal.ofBits_zero_f32]
  exact IsReal.zero

/-- The hidden layer. -/
theorem v6_real (x0 : FVec Ideal S10000x128 .f32) (x1 : FVec Ideal S10000x10000 .f32) (x2 : FVec Ideal S128x128 .f32) (x3 : FVec Ideal S128 .f32) (x4 : FVec Ideal S128x1 .f32) (x5 : FVec Ideal S1 .f32) (h0 : AllReal x0) (h1 : AllReal x1) (h2 : AllReal x2) (h3 : AllReal x3) (h4 : AllReal x4) (h5 : AllReal x5) : AllReal (val_main_v6 (F := Ideal) x0 x1 x2 x3) := fun i => by
  rw [val_main_v6_apply]
  show IsReal (Max.max _ _)
  exact (v4_real x0 x1 x2 x3 x4 x5 h0 h1 h2 h3 h4 h5 _).max (v5_real _)

/-- The hidden layer times the second weight column. -/
theorem v7_real (x0 : FVec Ideal S10000x128 .f32) (x1 : FVec Ideal S10000x10000 .f32) (x2 : FVec Ideal S128x128 .f32) (x3 : FVec Ideal S128 .f32) (x4 : FVec Ideal S128x1 .f32) (x5 : FVec Ideal S1 .f32) (h0 : AllReal x0) (h1 : AllReal x1) (h2 : AllReal x2) (h3 : AllReal x3) (h4 : AllReal x4) (h5 : AllReal x5) : AllReal (val_main_v7 (F := Ideal) x0 x1 x2 x3 x4) := fun i => by
  rw [val_main_v7_apply]
  exact IsReal.sum _ _ fun k _ => (v6_real x0 x1 x2 x3 x4 x5 h0 h1 h2 h3 h4 h5 _).mul (h4 _)

/-- The adjacency matrix times that. -/
theorem v8_real (x0 : FVec Ideal S10000x128 .f32) (x1 : FVec Ideal S10000x10000 .f32) (x2 : FVec Ideal S128x128 .f32) (x3 : FVec Ideal S128 .f32) (x4 : FVec Ideal S128x1 .f32) (x5 : FVec Ideal S1 .f32) (h0 : AllReal x0) (h1 : AllReal x1) (h2 : AllReal x2) (h3 : AllReal x3) (h4 : AllReal x4) (h5 : AllReal x5) : AllReal (val_main_v8 (F := Ideal) x0 x1 x2 x3 x4) := fun i => by
  rw [val_main_v8_apply]
  exact IsReal.sum _ _ fun k _ => (h1 _).mul (v7_real x0 x1 x2 x3 x4 x5 h0 h1 h2 h3 h4 h5 _)

/-- The second bias, broadcast over the rows. -/
theorem v10_real (x0 : FVec Ideal S10000x128 .f32) (x1 : FVec Ideal S10000x10000 .f32) (x2 : FVec Ideal S128x128 .f32) (x3 : FVec Ideal S128 .f32) (x4 : FVec Ideal S128x1 .f32) (x5 : FVec Ideal S1 .f32) (h0 : AllReal x0) (h1 : AllReal x1) (h2 : AllReal x2) (h3 : AllReal x3) (h4 : AllReal x4) (h5 : AllReal x5) : AllReal (val_main_v10 (F := Ideal) x5) := fun i => by
  rw [val_main_v10_apply, val_main_v9_apply]
  exact h5 _

/-- The logits column is real. -/
theorem v11_real (x0 : FVec Ideal S10000x128 .f32) (x1 : FVec Ideal S10000x10000 .f32) (x2 : FVec Ideal S128x128 .f32) (x3 : FVec Ideal S128 .f32) (x4 : FVec Ideal S128x1 .f32) (x5 : FVec Ideal S1 .f32) (h0 : AllReal x0) (h1 : AllReal x1) (h2 : AllReal x2) (h3 : AllReal x3) (h4 : AllReal x4) (h5 : AllReal x5) : AllReal (val_main_v11 (F := Ideal) x0 x1 x2 x3 x4 x5) := fun i => by
  rw [val_main_v11_apply]
  show IsReal (_ + _)
  exact (v8_real x0 x1 x2 x3 x4 x5 h0 h1 h2 h3 h4 h5 _).add (v10_real x0 x1 x2 x3 x4 x5 h0 h1 h2 h3 h4 h5 _)

/-- A maximum folded over a single index, from `b`, is the maximum of the one entry and `b`. -/
theorem fold_max_fin_one (b : EReal) (f : Fin 1 → EReal) : (Finset.univ : Finset (Fin 1)).fold Max.max b f = Max.max (f 0) b := by
  rw [Finset.univ_unique, Finset.fold_singleton]; rfl

/-- Each row's maximum over its single entry, started from minus infinity, is the entry. -/
theorem rowmax_apply (x0 : FVec Ideal S10000x128 .f32) (x1 : FVec Ideal S10000x10000 .f32) (x2 : FVec Ideal S128x128 .f32) (x3 : FVec Ideal S128 .f32) (x4 : FVec Ideal S128x1 .f32) (x5 : FVec Ideal S1 .f32) (r : Fin 10000) :
    val_main_call0_v0 (F := Ideal) x0 x1 x2 x3 x4 x5 (ix1 r) = val_main_v11 (F := Ideal) x0 x1 x2 x3 x4 x5 (ix2 r 0) := by
  unfold val_main_call0_v0
  generalize val_main_v11 (F := Ideal) x0 x1 x2 x3 x4 x5 = z
  have hR : S10000x1.Reduces [1] S10000 := by decide
  refine (hostReduce_maximumf_single z _ reducesTo_S10000x1_S10000_d1 hR h_S_ (ix1 r)).trans ?_
  refine (fold_max_fin_one _ _).trans ?_
  show Max.max (z (hR.lift (ix1 r) (0 : Fin 1))) (Ideal.ofBits .f32 0xFF800000#32) = z (ix2 r 0)
  rw [ofBits_neg_inf, max_bot_right]
  refine congrArg z (funext fun a => Fin.ext ?_)
  match a with
  | ⟨0, _⟩ => rfl
  | ⟨1, _⟩ => rfl

/-- The reference's result is the zero column when its inputs are real. -/
theorem result_zero (x0 : FVec Ideal S10000x128 .f32) (x1 : FVec Ideal S10000x10000 .f32) (x2 : FVec Ideal S128x128 .f32) (x3 : FVec Ideal S128 .f32) (x4 : FVec Ideal S128x1 .f32) (x5 : FVec Ideal S1 .f32) (h0 : AllReal x0) (h1 : AllReal x1) (h2 : AllReal x2) (h3 : AllReal x3) (h4 : AllReal x4) (h5 : AllReal x5) : val_main_v12 (F := Ideal) x0 x1 x2 x3 x4 x5 = fun _ => 0 := by
  funext i
  obtain ⟨r, u, rfl⟩ : ∃ (r : Fin 10000) (u : Fin 1), i = ix2 r u := ⟨i 0, i 1, eq_ix2 i⟩
  obtain rfl : u = 0 := Subsingleton.elim _ _
  have hz : IsReal (val_main_v11 (F := Ideal) x0 x1 x2 x3 x4 x5 (ix2 r 0)) := v11_real x0 x1 x2 x3 x4 x5 h0 h1 h2 h3 h4 h5 _
  have e13 : idx_main_call0_v3 (ix2 r (0 : Fin 1)) = ix1 r := funext fun a => Fin.ext (by match a with | ⟨0, _⟩ => rfl)
  have e17 : idx_main_call0_v7 (ix2 r (0 : Fin 1)) = ix1 r := funext fun a => Fin.ext (by match a with | ⟨0, _⟩ => rfl)
  have e16 : idx_main_call0_v6 (ix1 r) (0 : Fin 1) = ix2 r (0 : Fin 1) := funext fun a => Fin.ext (by match a with | ⟨0, _⟩ => rfl | ⟨1, _⟩ => rfl)
  have hmax : val_main_call0_v3 (F := Ideal) x0 x1 x2 x3 x4 x5 (ix2 r 0) = val_main_v11 (F := Ideal) x0 x1 x2 x3 x4 x5 (ix2 r 0) := by
    rw [val_main_call0_v3_apply, e13, val_main_call0_v2_apply, rowmax_apply, val_main_call0_v1_apply, val_main_call0_cst_0_apply]
    show Max.max (Ideal.ofBits .f32 0xFF800000#32) _ = _
    rw [ofBits_neg_inf, max_bot_left]
  have hs : val_main_call0_v4 (F := Ideal) x0 x1 x2 x3 x4 x5 (ix2 r 0) = 0 := by
    rw [val_main_call0_v4_apply, hmax]
    exact hz.sub_self
  have hsum : val_main_call0_v7 (F := Ideal) x0 x1 x2 x3 x4 x5 (ix2 r 0) = 1 := by
    rw [val_main_call0_v7_apply, e17, val_main_call0_v6_apply, Fin.sum_univ_one, e16, val_main_call0_v5_apply, hs, val_main_call0_cst_1_apply]
    show Ideal.ofBits .f32 0x00000000#32 + Ideal.exp 0 = 1
    rw [Ideal.ofBits_zero_f32, exp_zero, zero_add]
  rw [val_main_v12_apply, val_main_call0_v8_apply, hs, hsum]
  show (0 : EReal) - Ideal.log 1 = 0
  rw [log_one, sub_zero]

end Cert.ReferenceIdeal.RefValue

end
-- ==== Proof.PreReal.lean ====
/-
  The precondition says of each of the six inputs that every entry's absolute value is below plus infinity, and
  takes the conjunction. Read on the extended reals: every entry of every input is a real number.
-/
import proofs.«102506_g26706106646738_cont_8to1_1738_24_alg».proof.Pre_finite_inputs
import proofs.«102506_g26706106646738_cont_8to1_1738_24_alg».proof.Proof.RealVals
import Idealize.ShloMosaic.Lib.ReduceAll

noncomputable section

namespace Cert.PreReal

open Idealize.ShloMosaic Cert.Pre_finite_inputs Cert.RealVals

variable [Cert.Pre_finite_inputs.Facts]

/-- The rank-zero shape has one index. -/
instance : Subsingleton S_.Idx := ⟨fun a b => funext fun d => d.elim0⟩

/-- If the precondition holds of the six arrays, all their entries are real. -/
theorem all_real (x : FVec Ideal S10000x128 .f32) (adj : FVec Ideal S10000x10000 .f32) (W0 : FVec Ideal S128x128 .f32)
    (b0 : FVec Ideal S128 .f32) (W1 : FVec Ideal S128x1 .f32) (b1 : FVec Ideal S1 .f32)
    (h : fn (F := Ideal) x adj W0 b0 W1 b1 = fun _ => 1#1) :
    AllReal x ∧ AllReal adj ∧ AllReal W0 ∧ AllReal b0 ∧ AllReal W1 ∧ AllReal b1 := by
  have h0 := congrFun h ValueIdx.ix0
  dsimp only [fn, fn_part1] at h0
  obtain ⟨h01, h5⟩ := IntOp.andi_eq_one.1 h0
  obtain ⟨h02, h4⟩ := IntOp.andi_eq_one.1 h01
  obtain ⟨h03, h3⟩ := IntOp.andi_eq_one.1 h02
  obtain ⟨h04, h2⟩ := IntOp.andi_eq_one.1 h03
  obtain ⟨h00, h1⟩ := IntOp.andi_eq_one.1 h04
  exact ⟨fun i => isReal_of_cmp (Host.reduce_andi_all _ _ _ _ _ h00 i),
    fun i => isReal_of_cmp (Host.reduce_andi_all _ _ _ _ _ h1 i),
    fun i => isReal_of_cmp (Host.reduce_andi_all _ _ _ _ _ h2 i),
    fun i => isReal_of_cmp (Host.reduce_andi_all _ _ _ _ _ h3 i),
    fun i => isReal_of_cmp (Host.reduce_andi_all _ _ _ _ _ h4 i),
    fun i => isReal_of_cmp (Host.reduce_andi_all _ _ _ _ _ h5 i)⟩

end Cert.PreReal

end
-- ==== Proof.lean ====
/-
  Two stacked graph-convolution layers over a dense 10000 × 10000 adjacency matrix, ending in a log-softmax over
  a single class. The kernel computes the first layer block by block (400 rows of the adjacency matrix per grid
  point, the product of the features with the first weight matrix kept in a scratch buffer from the first point
  on), projects onto the one class, and applies the log-softmax to that logit directly; the reference runs the
  second adjacency product as well before its log-softmax. On the extended reals the two logits differ, but both
  are real when the inputs are (finite sums of products of reals), and the log-softmax over ONE class of a real
  logit `v` is `(v - v) - log (exp (v - v)) = 0`. So under the precondition both programs end with the zero
  column. The precondition is used: at an infinite logit `v - v` is not `0`.

  The three frames: each kernel program by its own run over the grid (the body's two cases, the scratch carried
  from point to point), the reference by its run as a list of host operations. The idealized kernel is the
  kernel's own text read on the extended reals: no rewrite was applied, so that conjunct is trivial.
-/
import proofs.«102506_g26706106646738_cont_8to1_1738_24_alg».proof.Defs
import proofs.«102506_g26706106646738_cont_8to1_1738_24_alg».proof.Proof.Gen.Kernel
import proofs.«102506_g26706106646738_cont_8to1_1738_24_alg».proof.Proof.Gen.KernelIdeal
import proofs.«102506_g26706106646738_cont_8to1_1738_24_alg».proof.Proof.Gen.ReferenceIdeal
import proofs.«102506_g26706106646738_cont_8to1_1738_24_alg».proof.Proof.Gen.Pre_finite_inputs
import proofs.«102506_g26706106646738_cont_8to1_1738_24_alg».proof.Proof.K.Frame
import proofs.«102506_g26706106646738_cont_8to1_1738_24_alg».proof.Proof.KI.Value
import proofs.«102506_g26706106646738_cont_8to1_1738_24_alg».proof.Proof.RefValue
import proofs.«102506_g26706106646738_cont_8to1_1738_24_alg».proof.Proof.PreReal

noncomputable section

namespace Cert.Proof

open Idealize.ShloMosaic Idealize.SL.Sem

/-- The kernel as printed runs to the end and leaves its arguments unchanged. -/
theorem frame_p : Cert.frame_Kernel := fun m ρ _ => Cert.Kernel.Frm.frame m ρ

/-- So does the idealized kernel. -/
theorem frame_pi : Cert.frame_KernelIdeal := fun m ρ _ => Cert.KernelIdeal.Frm.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the idealized reading. -/
theorem preserves : Cert.preserves_Kernel_KernelIdeal := trivial

/-- Under the precondition both idealized programs end with the zero column. -/
theorem algebraic : Cert.algebraic_KernelIdeal_ReferenceIdeal := by
  intro m ρ m' ρ' hpre hagree
  have hreal : ∀ c, Cert.KernelIdeal.Val.InputsReal m c := fun c => Cert.PreReal.all_real _ _ _ _ _ _ (hpre c)
  refine ⟨fun _ => (fun _ => (0 : EReal)), Cert.KernelIdeal.Val.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq]
  obtain ⟨a0, a1, a2, a3, a4, a5⟩ := hagree c
  rw [a0, a1, a2, a3, a4, a5]
  obtain ⟨r0, r1, r2, r3, r4, r5⟩ := hreal c
  exact Cert.ReferenceIdeal.RefValue.result_zero _ _ _ _ _ _ r0 r1 r2 r3 r4 r5

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
